-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S2000x128 : Shape := ⟨2, ![2000, 128]⟩
abbrev S1x128 : Shape := ⟨2, ![1, 128]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 69
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .f32⟩
  | .hbm, ⟨33, _⟩ => ⟨S850000, .f32⟩
  | .hbm, ⟨34, _⟩ => ⟨S850000, .f32⟩
  | .hbm, ⟨35, _⟩ => ⟨S850000x1, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .f32⟩
  | .hbm, ⟨45, _⟩ => ⟨S850000x128, .f32⟩
  | .hbm, ⟨46, _⟩ => ⟨S850000x128, .f32⟩
  | .hbm, ⟨47, _⟩ => ⟨S_, .f32⟩
  | .hbm, ⟨48, _⟩ => ⟨S50000x128, .f32⟩
  | .hbm, ⟨49, _⟩ => ⟨S850000x1, .i32⟩
  | .hbm, ⟨50, _⟩ => ⟨S50000x128, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S2000x64, .f32⟩
  | .local _ .vmem, ⟨15, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .f32⟩
  | .hbm, ⟨33, _⟩ => ⟨S850000, .f32⟩
  | .hbm, ⟨34, _⟩ => ⟨S850000, .f32⟩
  | .hbm, ⟨35, _⟩ => ⟨S850000x1, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .f32⟩
  | .hbm, ⟨45, _⟩ => ⟨S850000x128, .f32⟩
  | .hbm, ⟨46, _⟩ => ⟨S850000x128, .f32⟩
  | .hbm, ⟨47, _⟩ => ⟨S_, .f32⟩
  | .hbm, ⟨48, _⟩ => ⟨S50000x128, .f32⟩
  | .hbm, ⟨49, _⟩ => ⟨S850000x1, .i32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S850000x1, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x128, .f32⟩
  | .hbm, ⟨68, _⟩ => ⟨S850000x128, .f32⟩
  | .hbm, ⟨69, _⟩ => ⟨S850000x128, .f32⟩
  | .hbm, ⟨70, _⟩ => ⟨S_, .f32⟩
  | .hbm, ⟨71, _⟩ => ⟨S50000x128, .f32⟩
  | .hbm, ⟨72, _⟩ => ⟨S850000x1, .i32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run, with its result array named. The program is four segments: host operations, the
  first tiled computation, host operations, the second tiled computation. Every weakly fair execution ends, nothing
  faulting, with every buffer of the TensorCore at the contents the last segment leaves; read at the result buffer and
  at the ten argument buffers this is: the result at the last boundary's contents, the arguments as launched.
-/
import proofs.«123996_j30734785970607_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the contents the second tiled
    computation leaves and the argument buffers as launched. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«123996_j30734785970607_1_alg».proof.Proof.LibMatmulRows
import proofs.«123996_j30734785970607_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.KernelLayers.lean ====
/-
  What the two kernel bodies compute on one block of 2000 rows, on extended reals: the first body the rectified affine
  layer of its block, the second a rectified affine layer followed by two affine layers. The casts to the narrower
  float format before each product are no change on extended reals, and each product is taken into a zero accumulator,
  so each body is exactly the corresponding dense stage of LibDenseLayers.lean applied to the block.
-/
import proofs.«123996_j30734785970607_1_alg».proof.Proof.Gen.KernelIdeal.Skeleton
import proofs.«123996_j30734785970607_1_alg».proof.Proof.LibDenseLayers
import Idealize.ShloMosaic.Lib.Pipeline.Value

noncomputable section

namespace Cert.KernelIdeal.Dense

open Cert.KernelIdeal Cert.KernelIdeal.Gen Cert.LibDenseLayers
open Idealize.ShloMosaic Idealize.ShloMosaic.ValueIdx Idealize.ShloMosaic.Pipeline

/-! ## The coordinates the two block products read -/

local notation "dA" => dot_S2000x128_S128x128_S2000x128_1_0_0_1_n_n
local notation "dB" => dot_S2000x128_S128x64_S2000x64_1_0_0_1_n_n

theorem dA_l0 (i : S2000x128.Idx) (s : DotDims.contr dA |>.Idx) : (DotDims.lhsIdx dA i s 0).val = (i 0).val := by
  unfold DotDims.lhsIdx
  rw [dif_neg (show ¬(0 : Fin S2000x128.rank) ∈ DotDims.lhsBatch dA by decide),
    dif_pos (show (0 : Fin S2000x128.rank) ∈ DotDims.lhsNonContracting dA by decide)]
  rfl
theorem dA_l1 (i : S2000x128.Idx) (s : DotDims.contr dA |>.Idx) : (DotDims.lhsIdx dA i s 1).val = (s ⟨0, by decide⟩).val :=
  DotDims.lhsIdx_val_of_single dA rfl i s
theorem dA_r0 (i : S2000x128.Idx) (s : DotDims.contr dA |>.Idx) : (DotDims.rhsIdx dA i s 0).val = (s ⟨0, by decide⟩).val :=
  DotDims.rhsIdx_val_of_single dA rfl i s
theorem dA_r1 (i : S2000x128.Idx) (s : DotDims.contr dA |>.Idx) : (DotDims.rhsIdx dA i s 1).val = (i 1).val := by
  unfold DotDims.rhsIdx
  rw [dif_neg (show ¬(1 : Fin S128x128.rank) ∈ DotDims.rhsBatch dA by decide),
    dif_pos (show (1 : Fin S128x128.rank) ∈ DotDims.rhsNonContracting dA by decide)]
  rfl

theorem dB_l0 (i : S2000x64.Idx) (s : DotDims.contr dB |>.Idx) : (DotDims.lhsIdx dB i s 0).val = (i 0).val := by
  unfold DotDims.lhsIdx
  rw [dif_neg (show ¬(0 : Fin S2000x128.rank) ∈ DotDims.lhsBatch dB by decide),
    dif_pos (show (0 : Fin S2000x128.rank) ∈ DotDims.lhsNonContracting dB by decide)]
  rfl
theorem dB_l1 (i : S2000x64.Idx) (s : DotDims.contr dB |>.Idx) : (DotDims.lhsIdx dB i s 1).val = (s ⟨0, by decide⟩).val :=
  DotDims.lhsIdx_val_of_single dB rfl i s
theorem dB_r0 (i : S2000x64.Idx) (s : DotDims.contr dB |>.Idx) : (DotDims.rhsIdx dB i s 0).val = (s ⟨0, by decide⟩).val :=
  DotDims.rhsIdx_val_of_single dB rfl i s
theorem dB_r1 (i : S2000x64.Idx) (s : DotDims.contr dB |>.Idx) : (DotDims.rhsIdx dB i s 1).val = (i 1).val := by
  unfold DotDims.rhsIdx
  rw [dif_neg (show ¬(1 : Fin S128x64.rank) ∈ DotDims.rhsBatch dB by decide),
    dif_pos (show (1 : Fin S128x64.rank) ∈ DotDims.rhsNonContracting dB by decide)]
  rfl

/-! ## The two bodies -/

/-- The first body's stored value is the rectified affine layer of its block of rows. -/
theorem pay0_eq (x0 : Vec Ideal S2000x128 .f32) (x1 : Vec Ideal S128x128 .f32) (x2 : Vec Ideal S128 .f32) :
    k0_pay1 (F := Ideal) x0 x1 x2 = stage1 x0 x1 x2 := by
  unfold k0_pay1
  dsimp only
  rw [shapeCast_self, affine_of_matmul dA rfl rfl dA_l0 dA_l1 dA_r0 dA_r1]
  rfl

/-- The second body's stored value is, of its block of rows: the rectified affine layer, then two affine layers. -/
theorem pay1_eq (x0 : Vec Ideal S2000x128 .f32) (x1 : Vec Ideal S128x128 .f32) (x2 : Vec Ideal S128 .f32)
    (x3 : Vec Ideal S128x128 .f32) (x4 : Vec Ideal S128 .f32) (x5 : Vec Ideal S128x64 .f32) (x6 : Vec Ideal S64 .f32) :
    k1_pay1 (F := Ideal) x0 x1 x2 x3 x4 x5 x6 = stage2 x0 x1 x2 x3 x4 x5 x6 := by
  unfold k1_pay1
  dsimp only
  rw [shapeCast_self, affine_of_matmul dB rfl rfl dB_l0 dB_l1 dB_r0 dB_r1,
    affine_of_matmul dA rfl rfl dA_l0 dA_l1 dA_r0 dA_r1, affine_of_matmul dA rfl rfl dA_l0 dA_l1 dA_r0 dA_r1]
  rfl

end Cert.KernelIdeal.Dense

end
-- ==== Proof.KernelBlocks.lean ====
/-
  From blocks to whole matrices. Each tiled computation walks 25 grid points; point t reads rows 2000·t … 2000·t + 1999
  of its input matrix and the whole weight matrices and bias vectors, and writes the same rows of its output matrix.
  Because a dense stage is row-local (LibDenseLayers.lean), what point t writes is rows 2000·t … of the stage applied to the WHOLE
  input matrix; the 25 blocks of rows tile the 50000 rows, so after the last point the output matrix is the stage of
  the input matrix as the computation found it.
-/
import proofs.«123996_j30734785970607_1_alg».proof.Proof.Gen.KernelIdeal.Frame
import proofs.«123996_j30734785970607_1_alg».proof.Proof.KernelLayers
import Idealize.ShloMosaic.Lib.Pipeline.Value

set_option maxRecDepth 16384

noncomputable section

namespace Cert.KernelIdeal.Blocks

open Cert.KernelIdeal Cert.KernelIdeal.Gen Cert.KernelIdeal.Dense Cert.LibDenseLayers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first tiled computation -/

/-- The block indices at point t: the row blocks of the input and of the output are block t, the weights and the bias
    are their one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is rows 2000·t … of the first dense stage of the whole input matrix. -/
theorem flushed0_eq (c : Dev nD) (t : Fin cfg0.N) :
    (dat0 V c).flushed 3 t = ((cfg0.win 3).blk t).view.read (Elt Ideal)
      (stage1 (V c main_v32) (V c main_arg2) (V c main_arg3)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  rw [pay0_eq]
  obtain ⟨e0, e1, e2, e3, e4, e5, e6⟩ := idx_facts0 t
  have ht : t.val < 25 := t.isLt
  have hW : iblk0 V c 1 t = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hb : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 1) * 128 + 1 * (y 0).val = (y 0).val; omega
  rw [hW, hb]
  refine funext fun (j : S2000x128.Idx) => ?_
  obtain ⟨p, q, rfl⟩ : ∃ (p : Fin 2000) (q : Fin 128), j = ix2 p q := ⟨j 0, j 1, eq_ix2 j⟩
  have hemb : ((cfg0.win 3).blk t).view.emb (ix2 p q) = (ix2 (⟨t.val * 2000 + p.val, by omega⟩ : Fin 50000) q : S50000x128.Idx) := by
    refine funext fun a => Fin.ext ?_
    match a with
    | ⟨0, _⟩ => show win0_3.index t (0 : Fin 2) * 2000 + 1 * p.val = t.val * 2000 + p.val; omega
    | ⟨1, _⟩ => show win0_3.index t (1 : Fin 2) * 128 + 1 * q.val = q.val; omega
  show stage1 (iblk0 V c 0 t) (V c main_arg2) (V c main_arg3) (ix2 p q)
    = stage1 (V c main_v32) (V c main_arg2) (V c main_arg3) (((cfg0.win 3).blk t).view.emb (ix2 p q))
  rw [hemb]
  refine stage1_row _ _ _ _ p _ (fun k => ?_) q
  show V c main_v32 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- An index of the output matrix is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v33).slice (win0_3.rect t)).set ↔ _
  rw [View.set_slice_whole, Rect.mem_set_unit]
  exact Iff.rfl

/-- Row r of the output matrix is written by point r / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk0]
  obtain ⟨e0, e1, e2, e3, e4, e5, e6⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e5]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e6]; omega

/-- After its last point the first tiled computation's output matrix is the first dense stage of its input matrix,
    weights and bias as it found them. -/
theorem final0 (c : Dev nD) :
    (dat0 V c).arrAt 3 cfg0.N = stage1 (V c main_v32) (V c main_arg2) (V c main_arg3) :=
  (dat0 V c).arrAt_eq_of_cover 3 _ (fun t _ => flushed0_eq V c t) cover0

/-! ## The second tiled computation -/

/-- The block indices at point t: the row blocks of the input and of the output are block t, every weight matrix and
    bias vector is its one whole block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- What point t writes back is rows 2000·t … of the second dense stage of the whole input matrix. -/
theorem flushed1_eq (c : Dev nD) (t : Fin cfg1.N) :
    (dat1 V c).flushed 7 t = ((cfg1.win 7).blk t).view.read (Elt Ideal)
      (stage2 (V c main_v46) (V c main_arg4) (V c main_arg5) (V c main_arg6) (V c main_arg7) (V c main_arg8) (V c main_arg9)) := by
  show (cfg1.win 7).cut (grid1.coords t) ((dat1 V c).after 7 t) = _
  rw [after1_7]
  unfold out1_7
  rw [View.canon_unit_zero hz2]
  simp only [View.ld_unit_zero (S := S2000x128) hz2, View.ld_unit_zero (S := S128x128) hz2, View.ld_unit_zero (S := S128) hz1,
    View.ld_unit_zero (S := S128x64) hz2, View.ld_unit_zero (S := S64) hz1]
  rw [pay1_eq]
  obtain ⟨e0, e1, e2, e3, e4, e5, e6, e7, e8, e9, e10, e11, e12⟩ := idx_facts1 t
  have ht : t.val < 25 := t.isLt
  have hw1 : iblk1 V c 1 t = V c main_arg4 := by
    funext y
    show V c main_arg4 (((cfg1.win 1).blk t).view.emb y) = V c main_arg4 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hw2 : iblk1 V c 2 t = V c main_arg5 := by
    funext y
    show V c main_arg5 (((cfg1.win 2).blk t).view.emb y) = V c main_arg5 y
    refine congrArg _ (funext fun a => Fin.ext ?_)
    match a with
    | ⟨0, _⟩ => show win1_2.index t (0 : Fin 1) * 128 + 1 * (y 0).val = (y 0).val; omega
  have hw3 : iblk1 V c 3 t = V c main_arg6 := by
    funext y
    show V c main_arg6 (((cfg1.win 3).blk t).view.emb y) = V c main_arg6 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_arg7 := by
    funext y
    show V c main_arg7 (((cfg1.win 4).blk t).view.emb y) = V c main_arg7 y
    refine congrArg _ (funext fun a => Fin.ext ?_)
    match a with
    | ⟨0, _⟩ => show win1_4.index t (0 : Fin 1) * 128 + 1 * (y 0).val = (y 0).val; omega
  have hw5 : iblk1 V c 5 t = V c main_arg8 := by
    funext y
    show V c main_arg8 (((cfg1.win 5).blk t).view.emb y) = V c main_arg8 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 64 + 1 * (y 1).val = (y 1).val; omega
  have hw6 : iblk1 V c 6 t = V c main_arg9 := by
    funext y
    show V c main_arg9 (((cfg1.win 6).blk t).view.emb y) = V c main_arg9 y
    refine congrArg _ (funext fun a => Fin.ext ?_)
    match a with
    | ⟨0, _⟩ => show win1_6.index t (0 : Fin 1) * 64 + 1 * (y 0).val = (y 0).val; omega
  rw [hw1, hw2, hw3, hw4, hw5, hw6]
  refine funext fun (j : S2000x64.Idx) => ?_
  obtain ⟨p, q, rfl⟩ : ∃ (p : Fin 2000) (q : Fin 64), j = ix2 p q := ⟨j 0, j 1, eq_ix2 j⟩
  have hemb : ((cfg1.win 7).blk t).view.emb (ix2 p q) = (ix2 (⟨t.val * 2000 + p.val, by omega⟩ : Fin 50000) q : S50000x64.Idx) := by
    refine funext fun a => Fin.ext ?_
    match a with
    | ⟨0, _⟩ => show win1_7.index t (0 : Fin 2) * 2000 + 1 * p.val = t.val * 2000 + p.val; omega
    | ⟨1, _⟩ => show win1_7.index t (1 : Fin 2) * 64 + 1 * q.val = q.val; omega
  show stage2 (iblk1 V c 0 t) (V c main_arg4) (V c main_arg5) (V c main_arg6) (V c main_arg7) (V c main_arg8) (V c main_arg9) (ix2 p q)
    = stage2 (V c main_v46) (V c main_arg4) (V c main_arg5) (V c main_arg6) (V c main_arg7) (V c main_arg8) (V c main_arg9)
        (((cfg1.win 7).blk t).view.emb (ix2 p q))
  rw [hemb]
  refine stage2_row _ _ _ _ _ _ _ _ p _ (fun k => ?_) q
  show V c main_v46 (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- An index of the output matrix is in point t's block iff each coordinate is in the block's range on its axis. -/
theorem mem_blk1 (t : Fin cfg1.N) (i : S50000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v47).slice (win1_7.rect t)).set ↔ _
  rw [View.set_slice_whole, Rect.mem_set_unit]
  exact Iff.rfl

/-- Row r of the output matrix is written by point r / 2000. -/
theorem cover1 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_7 _, ?_⟩
  rw [mem_blk1]
  obtain ⟨e0, e1, e2, e3, e4, e5, e6, e7, e8, e9, e10, e11, e12⟩ := idx_facts1 ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [e11]; show (i 0).val / 2000 * 2000 ≤ (i 0).val ∧ (i 0).val < (i 0).val / 2000 * 2000 + 2000; omega
  | ⟨1, _⟩ =>
    show win1_7.index _ (1 : Fin 2) * 64 ≤ (i 1).val ∧ (i 1).val < win1_7.index _ (1 : Fin 2) * 64 + 64
    rw [e12]; omega

/-- After its last point the second tiled computation's output matrix is the second dense stage of its input matrix,
    weights and biases as it found them. -/
theorem final1 (c : Dev nD) :
    (dat1 V c).arrAt 7 cfg1.N
      = stage2 (V c main_v46) (V c main_arg4) (V c main_arg5) (V c main_arg6) (V c main_arg7) (V c main_arg8) (V c main_arg9) :=
  (dat1 V c).arrAt_eq_of_cover 7 _ (fun t _ => flushed1_eq V c t) cover1

end Cert.KernelIdeal.Blocks

end
-- ==== Proof.ReferenceLayers.lean ====
/-
  The reference program's result as a composition of four maps. Write A for the row-normalised adjacency with self-loops
  that the edge list defines; `propagate` sends a feature matrix h to A · h, spelt as the program spells it: gather the
  source rows of h, scale each by one over the degree of its destination, add them up per destination. Then the
  reference computes
      stage2 (propagate (stage1 (propagate x) W1 b1)) W2 b2 W3 b3 W4 b4
  with the dense stages of LibDenseLayers.lean: each of its dot_general + bias steps is an affine layer, each `relu` the
  rectifier. `propagate` is never opened: both programs apply the same map, so only its name is needed.
-/
import proofs.«123996_j30734785970607_1_alg».proof.Proof.Gen.ReferenceIdeal.Read
import proofs.«123996_j30734785970607_1_alg».proof.Proof.LibDenseLayers

noncomputable section

namespace Cert.ReferenceIdeal.Dense

open Cert.ReferenceIdeal Cert.ReferenceIdeal.Read Cert.LibDenseLayers
open Idealize.ShloMosaic Idealize.ShloMosaic.ValueIdx

variable {F : FTy → Type} [FloatOps F]

/-- A · h for the normalised adjacency A of the edge list x1 with self-loops: the source rows of h gathered, each
    scaled by the reciprocal of its destination's degree, summed per destination. -/
def propagate (x1 : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1 (val_main_v48 (F := F)) (val_main_v49 (F := F) x1)
    (mulf (val_main_v46 (F := F) x1)
      (Host.gather gather_S50000x128_S850000x1_S850000x128_1_0_n_n_0_1_1128 h (val_main_v44 (F := F) x1)))

/-- The program's first propagation (of the input features) is that map: its index and scale tables are built by the same
    operations as the second one's. -/
theorem first_propagate (x0 : (⟨S50000x128, .f32⟩ : BufTy).Contents (Elt F)) (x1 : (⟨S2x800000, .i32⟩ : BufTy).Contents (Elt F)) :
    val_main_v32 (F := F) x0 x1 = propagate x1 x0 := rfl

/-- The program's second propagation, of the first stage's result. -/
theorem second_propagate (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F)) :
    val_main_v50 (F := F) x0 x1 x2 x3 = propagate x1 (val_main_v37 (F := F) x0 x1 x2 x3) := rfl

/-- The host's `relu`: the maximum with a matrix of zeros is the rectifier (first call). -/
theorem relu_call0 (a : FVec Ideal S50000x128 .f32) :
    maximumf a (val_main_call0_v0 (F := Ideal)) = (relu a : FVec Ideal S50000x128 .f32) := by
  funext i
  show max (a i) (val_main_call0_v0 (F := Ideal) i) = max (a i) _
  rw [val_main_call0_v0_apply]
  rfl

/-- The host's `relu` (second call). -/
theorem relu_call1 (a : FVec Ideal S50000x128 .f32) :
    maximumf a (val_main_call1_v0 (F := Ideal)) = (relu a : FVec Ideal S50000x128 .f32) := by
  funext i
  show max (a i) (val_main_call1_v0 (F := Ideal) i) = max (a i) _
  rw [val_main_call1_v0_apply]
  rfl

/-- The first dense stage as the reference spells it. -/
theorem first_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v37 (F := Ideal) x0 x1 x2 x3 = stage1 (propagate x1 x0) x2 x3 := by
  unfold val_main_v37 val_main_v36 val_main_v35 val_main_v34 val_main_v33
  rw [affine_of_dot (by decide) dot_S50000x128_S128x128_S50000x128_1_0_0_1_n_n rfl rfl
    lhs_main_v33_0 lhs_main_v33_1 rhs_main_v33_0 rhs_main_v33_1, relu_call0, first_propagate]
  rfl

/-- The reference's result: the second dense stage of the propagated first stage of the propagated input. -/
theorem result (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v63 (F := Ideal) x0 x1 x2 x3 x4 x5 x6 x7 x8 x9
      = stage2 (propagate x1 (stage1 (propagate x1 x0) x2 x3)) x4 x5 x6 x7 x8 x9 := by
  unfold val_main_v63 val_main_v62 val_main_v61 val_main_v60 val_main_v59 val_main_v58 val_main_v57 val_main_v56
    val_main_v55 val_main_v54 val_main_v53 val_main_v52 val_main_v51
  rw [affine_of_dot (by decide) dot_S50000x128_S128x64_S50000x64_1_0_0_1_n_n rfl rfl
      lhs_main_v60_0 lhs_main_v60_1 rhs_main_v60_0 rhs_main_v60_1,
    affine_of_dot (by decide) dot_S50000x128_S128x128_S50000x128_1_0_0_1_n_n rfl rfl
      lhs_main_v56_0 lhs_main_v56_1 rhs_main_v56_0 rhs_main_v56_1,
    relu_call1,
    affine_of_dot (by decide) dot_S50000x128_S128x128_S50000x128_1_0_0_1_n_n rfl rfl
      lhs_main_v51_0 lhs_main_v51_1 rhs_main_v51_0 rhs_main_v51_1,
    second_propagate, first_stage]
  rfl

end Cert.ReferenceIdeal.Dense

end
-- ==== Proof.KernelHost.lean ====
/-
  The host operations around the two tiled computations, read as values. Before the first tiled computation the program
  builds, from the edge list, the destination table, the source table and the reciprocal degrees, and propagates the
  input features; between the two it propagates the first stage's result with the same tables. Each is the map
  `propagate` of ReferenceLayers.lean — the kernel program's host operations are, operation for operation, the
  reference's — applied to what the buffers held when the stretch began. The weights and biases pass through untouched.
-/
import proofs.«123996_j30734785970607_1_alg».proof.Proof.Gen.KernelIdeal.Frame
import proofs.«123996_j30734785970607_1_alg».proof.Proof.ReferenceLayers
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v19)
open Cert.ReferenceIdeal.Dense (propagate)

variable (m : (ℓ : Loc nD τ sig) → Buf (Elt Ideal) ℓ) (ρ : Dev nD → PrngReg)

/-! ## Before the first tiled computation -/

/-- The destination table: the edge list's first row followed by 0 … 49999. -/
theorem dest_table (c : Dev nD) :
    W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl

/-- The source table: the edge list's second row followed by 0 … 49999. -/
theorem src_table (c : Dev nD) :
    W1 m ρ c (Proc.devRef .tc main_v6) = val_main_v6 (F := Ideal) (m ((c.tc : Thread nD τ).loc main_arg1)) := by
  show StableHlo.after hostOps0 (W0 m ρ c) (Proc.devRef .tc main_v6) = _
  after_results_simp <;> rfl

/-- The reciprocal of each entry's destination degree. -/
theorem scale_table (c : Dev nD) :
    W1 m ρ c (Proc.devRef .tc main_v19) = val_main_v19 (F := Ideal) (m ((c.tc : Thread nD τ).loc main_arg1)) := by
  show StableHlo.after hostOps0 (W0 m ρ c) (Proc.devRef .tc main_v19) = _
  after_results_simp <;> rfl

/-- The first tiled computation's input matrix is the propagated input features. -/
theorem first_input (c : Dev nD) :
    W1 m ρ c (Proc.devRef .tc main_v32) = propagate (F := Ideal) (m ((c.tc : Thread nD τ).loc main_arg1)) (m ((c.tc : Thread nD τ).loc main_arg0)) := by
  show StableHlo.after hostOps0 (W0 m ρ c) (Proc.devRef .tc main_v32) = _
  after_results_simp <;> rfl

/-- The first weight matrix reaches the first tiled computation as launched. -/
theorem first_weights (c : Dev nD) : W1 m ρ c (Proc.devRef .tc main_arg2) = (m ((c.tc : Thread nD τ).loc main_arg2)) := by
  show StableHlo.after hostOps0 (W0 m ρ c) (Proc.devRef .tc main_arg2) = _
  after_results_simp <;> rfl

/-- The first bias vector reaches the first tiled computation as launched. -/
theorem first_bias (c : Dev nD) : W1 m ρ c (Proc.devRef .tc main_arg3) = (m ((c.tc : Thread nD τ).loc main_arg3)) := by
  show StableHlo.after hostOps0 (W0 m ρ c) (Proc.devRef .tc main_arg3) = _
  after_results_simp <;> rfl

/-! ## Between the two tiled computations -/

/-- The second tiled computation's input matrix is the propagated result of the first, with the tables built before
    the first (no operation in between writes them). -/
theorem second_input (c : Dev nD) :
    W3 m ρ c (Proc.devRef .tc main_v46)
      = propagate (F := Ideal) (m ((c.tc : Thread nD τ).loc main_arg1)) (W2 m ρ c (Proc.devRef .tc main_v33)) := by
  show StableHlo.after hostOps1 (W2 m ρ c) (Proc.devRef .tc main_v46) = _
  after_results_simp
  rw [W2_of_ne m ρ c main_v3 (by decide), W2_of_ne m ρ c main_v6 (by decide), W2_of_ne m ρ c main_v19 (by decide),
    dest_table, src_table, scale_table]
  rfl

/-- The remaining weights and biases reach the second tiled computation as launched: it only reads them (an input
    window's matrix ends as it was entered), and after it they are as launched. -/
theorem second_arg4 (c : Dev nD) : W3 m ρ c (Proc.devRef .tc main_arg4) = (m ((c.tc : Thread nD τ).loc main_arg4)) :=
  (show W4 m ρ c (Proc.devRef .tc main_arg4) = W3 m ρ c (Proc.devRef .tc main_arg4) from
    (W4_arr m ρ c 1).trans (((dat1 (V3 m ρ) c).arrAt_in 1 rfl _).trans (A_eq1 (V3 m ρ) c 1))).symm.trans
    (W4_main_arg4 m ρ c)
theorem second_arg5 (c : Dev nD) : W3 m ρ c (Proc.devRef .tc main_arg5) = (m ((c.tc : Thread nD τ).loc main_arg5)) :=
  (show W4 m ρ c (Proc.devRef .tc main_arg5) = W3 m ρ c (Proc.devRef .tc main_arg5) from
    (W4_arr m ρ c 2).trans (((dat1 (V3 m ρ) c).arrAt_in 2 rfl _).trans (A_eq1 (V3 m ρ) c 2))).symm.trans
    (W4_main_arg5 m ρ c)
theorem second_arg6 (c : Dev nD) : W3 m ρ c (Proc.devRef .tc main_arg6) = (m ((c.tc : Thread nD τ).loc main_arg6)) :=
  (show W4 m ρ c (Proc.devRef .tc main_arg6) = W3 m ρ c (Proc.devRef .tc main_arg6) from
    (W4_arr m ρ c 3).trans (((dat1 (V3 m ρ) c).arrAt_in 3 rfl _).trans (A_eq1 (V3 m ρ) c 3))).symm.trans
    (W4_main_arg6 m ρ c)
theorem second_arg7 (c : Dev nD) : W3 m ρ c (Proc.devRef .tc main_arg7) = (m ((c.tc : Thread nD τ).loc main_arg7)) :=
  (show W4 m ρ c (Proc.devRef .tc main_arg7) = W3 m ρ c (Proc.devRef .tc main_arg7) from
    (W4_arr m ρ c 4).trans (((dat1 (V3 m ρ) c).arrAt_in 4 rfl _).trans (A_eq1 (V3 m ρ) c 4))).symm.trans
    (W4_main_arg7 m ρ c)
theorem second_arg8 (c : Dev nD) : W3 m ρ c (Proc.devRef .tc main_arg8) = (m ((c.tc : Thread nD τ).loc main_arg8)) :=
  (show W4 m ρ c (Proc.devRef .tc main_arg8) = W3 m ρ c (Proc.devRef .tc main_arg8) from
    (W4_arr m ρ c 5).trans (((dat1 (V3 m ρ) c).arrAt_in 5 rfl _).trans (A_eq1 (V3 m ρ) c 5))).symm.trans
    (W4_main_arg8 m ρ c)
theorem second_arg9 (c : Dev nD) : W3 m ρ c (Proc.devRef .tc main_arg9) = (m ((c.tc : Thread nD τ).loc main_arg9)) :=
  (show W4 m ρ c (Proc.devRef .tc main_arg9) = W3 m ρ c (Proc.devRef .tc main_arg9) from
    (W4_arr m ρ c 6).trans (((dat1 (V3 m ρ) c).arrAt_in 6 rfl _).trans (A_eq1 (V3 m ρ) c 6))).symm.trans
    (W4_main_arg9 m ρ c)

end Cert.KernelIdeal.HostStages

end
-- ==== Proof.KernelValue.lean ====
/-
  The idealized kernel program's result as one composition: with x the input features, A · (–) the propagation along the
  edge list, and the dense stages of LibDenseLayers.lean,
      stage2 (A · stage1 (A · x) W1 b1) W2 b2 W3 b3 W4 b4.
  Read backwards from the result buffer: the second tiled computation leaves the second stage of its input matrix; its
  input is the propagated output of the first tiled computation; that is the first stage of its input matrix; and that
  input is the propagated features.
-/
import proofs.«123996_j30734785970607_1_alg».proof.Proof.KernelBlocks
import proofs.«123996_j30734785970607_1_alg».proof.Proof.KernelHost

set_option maxRecDepth 16384

noncomputable section

namespace Cert.KernelIdeal.Composed

open Cert.KernelIdeal Cert.KernelIdeal.Gen Cert.KernelIdeal.Blocks Cert.KernelIdeal.HostStages Cert.LibDenseLayers
open Idealize.ShloMosaic Idealize.ShloMosaic.TcCoe Idealize.SL.Sem
open Cert.ReferenceIdeal.Dense (propagate)

variable (m : (ℓ : Loc nD τ sig) → Buf (Elt Ideal) ℓ) (ρ : Dev nD → PrngReg)

/-- The first tiled computation's output matrix, as the host operations after it find it. -/
theorem first_output (c : Dev nD) :
    W2 m ρ c (Proc.devRef .tc main_v33)
      = stage1 (propagate (F := Ideal) (m ((c.tc : Thread nD τ).loc main_arg1)) (m ((c.tc : Thread nD τ).loc main_arg0))) (m ((c.tc : Thread nD τ).loc main_arg2)) (m ((c.tc : Thread nD τ).loc main_arg3)) := by
  refine (W2_arr m ρ c 3).trans ((final0 (V1 m ρ) c).trans ?_)
  show stage1 (W1 m ρ c (Proc.devRef .tc main_v32)) (W1 m ρ c (Proc.devRef .tc main_arg2)) (W1 m ρ c (Proc.devRef .tc main_arg3)) = _
  rw [first_input, first_weights, first_bias]

/-- The result buffer after the last segment. -/
theorem result (c : Dev nD) :
    W4 m ρ c (Proc.devRef .tc main_v47)
      = stage2 (propagate (F := Ideal) (m ((c.tc : Thread nD τ).loc main_arg1))
          (stage1 (propagate (F := Ideal) (m ((c.tc : Thread nD τ).loc main_arg1)) (m ((c.tc : Thread nD τ).loc main_arg0))) (m ((c.tc : Thread nD τ).loc main_arg2)) (m ((c.tc : Thread nD τ).loc main_arg3))))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 7).trans ((final1 (V3 m ρ) c).trans ?_)
  show stage2 (W3 m ρ c (Proc.devRef .tc main_v46)) (W3 m ρ c (Proc.devRef .tc main_arg4)) (W3 m ρ c (Proc.devRef .tc main_arg5))
      (W3 m ρ c (Proc.devRef .tc main_arg6)) (W3 m ρ c (Proc.devRef .tc main_arg7)) (W3 m ρ c (Proc.devRef .tc main_arg8))
      (W3 m ρ c (Proc.devRef .tc main_arg9)) = _
  rw [second_input, first_output, second_arg4, second_arg5, second_arg6, second_arg7, second_arg8, second_arg9]

end Cert.KernelIdeal.Composed

end
-- ==== Proof.lean ====
/-
  A two-layer graph convolution followed by two linear layers, on 50000 nodes with 128 features and 800000 edges.

  Write A for the adjacency of the edge list with a self-loop added at every node, each row divided by its degree, and
  A · h for the propagation of a feature matrix h along it (gather the source rows, scale, add up per destination).
  Both programs compute
      out = (max(A · max(A · x · W1 + b1, 0) · W2 + b2, 0) · W3 + b3) · W4 + b4.
  The reference does every step on whole matrices. The kernel program does the two propagations with the same host
  operations, and the dense steps in two computations tiled over 25 blocks of 2000 rows: the first computes
  max(h · W1 + b1, 0), the second the remaining three layers, each block's operands cast to a narrower float format before
  every product and every product accumulated from zero.

  On extended reals a change of float format is no change, a product into a zero accumulator and a dot_general are the
  same finite sum, and a dense layer's row p depends only on row p of its input — so a layer computed block of rows by block
  of rows is the layer of the whole matrix (LibDenseLayers.lean, KernelLayers.lean, KernelBlocks.lean). The propagation is the same
  map in both programs and is never opened (ReferenceLayers.lean, KernelHost.lean). Hence the two results are one
  function of the arguments, index by index, with no use of the finiteness of the inputs: no law beyond re-indexing
  a finite sum is applied.

  The frames of the two kernel programs are the generated ones; the reference's frame is its generated run with the
  result dropped; the idealization rewrote no operation, so there is nothing to preserve.
-/
import proofs.«123996_j30734785970607_1_alg».proof.Defs
import proofs.«123996_j30734785970607_1_alg».proof.Proof.Gen.Kernel
import proofs.«123996_j30734785970607_1_alg».proof.Proof.Gen.Kernel.Skeleton
import proofs.«123996_j30734785970607_1_alg».proof.Proof.Gen.Kernel.Launch
import proofs.«123996_j30734785970607_1_alg».proof.Proof.Gen.Kernel.Points
import proofs.«123996_j30734785970607_1_alg».proof.Proof.Gen.Kernel.Frame
import proofs.«123996_j30734785970607_1_alg».proof.Proof.Gen.KernelIdeal
import proofs.«123996_j30734785970607_1_alg».proof.Proof.Gen.KernelIdeal.Skeleton
import proofs.«123996_j30734785970607_1_alg».proof.Proof.Gen.KernelIdeal.Launch
import proofs.«123996_j30734785970607_1_alg».proof.Proof.Gen.KernelIdeal.Points
import proofs.«123996_j30734785970607_1_alg».proof.Proof.Gen.KernelIdeal.Frame
import proofs.«123996_j30734785970607_1_alg».proof.Proof.Gen.ReferenceIdeal
import proofs.«123996_j30734785970607_1_alg».proof.Proof.Gen.ReferenceIdeal.Run
import proofs.«123996_j30734785970607_1_alg».proof.Proof.Gen.ReferenceIdeal.Read
import proofs.«123996_j30734785970607_1_alg».proof.Proof.Gen.Pre_finite_inputs
import proofs.«123996_j30734785970607_1_alg».proof.Proof.KernelRun
import proofs.«123996_j30734785970607_1_alg».proof.Proof.KernelValue
import proofs.«123996_j30734785970607_1_alg».proof.Proof.ReferenceLayers
import Idealize.ShloMosaic.Adequacy
import Idealize.ShloMosaic.Init

noncomputable section

namespace Cert.Proof

open Idealize.ShloMosaic Idealize.ShloMosaic.TcCoe Idealize.SL.Sem
open Cert.LibDenseLayers Cert.ReferenceIdeal.Dense

/-- The kernel program as printed runs to the end and leaves its arguments as launched. -/
theorem frame_kernel : Cert.frame_Kernel := fun m ρ _ => Cert.Kernel.Gen.frame m ρ

/-- So does its reading on extended reals. -/
theorem frame_kernel_ideal : Cert.frame_KernelIdeal := fun m ρ _ => Cert.KernelIdeal.Gen.frame m ρ

/-- And the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result
    stage2 (A · stage1 (A · x) W1 b1) W2 b2 W3 b3 W4 b4 of the kernel program's arguments. -/
theorem algebraic : Cert.algebraic_KernelIdeal_ReferenceIdeal := by
  intro m ρ m' ρ' _ hagree
  refine ⟨fun c => stage2 (propagate (F := Ideal) (m ((c.tc : Thread Cert.KernelIdeal.nD Cert.KernelIdeal.τ).loc Cert.KernelIdeal.main_arg1))
      (stage1 (propagate (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Composed.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, Cert.ReferenceIdeal.Dense.result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
